-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x128 .f32) (main_arg5 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 84
  | .vmem => 11
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x128, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x128, .f32⟩
  | .hbm, ⟨74, _⟩ => ⟨S850000x1, .f32⟩
  | .hbm, ⟨75, _⟩ => ⟨S850000x128, .f32⟩
  | .hbm, ⟨76, _⟩ => ⟨S850000x128, .f32⟩
  | .hbm, ⟨77, _⟩ => ⟨S_, .f32⟩
  | .hbm, ⟨78, _⟩ => ⟨S50000x128, .f32⟩
  | .hbm, ⟨79, _⟩ => ⟨S850000x1, .i32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S256x128, .f32⟩
  | .local _ .vmem, ⟨9, _⟩ => ⟨S2000x128, .f32⟩
  | .local _ .vmem, ⟨10, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000x256 : Shape := ⟨2, ![50000, 256]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 129
  | .vmem => 0
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S256x128, .f32⟩
  | 5 => ⟨S128, .f32⟩
  | 6 => ⟨S50000x256, .f32⟩
  | 7 => ⟨S1x800000, .i32⟩
  | 8 => ⟨S800000, .i32⟩
  | 9 => ⟨S1x800000, .i32⟩
  | 10 => ⟨S800000, .i32⟩
  | 11 => ⟨S50000, .i32⟩
  | 12 => ⟨S850000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x256, .f32⟩
  | 56 => ⟨S850000x1, .f32⟩
  | 57 => ⟨S850000x256, .f32⟩
  | 58 => ⟨S850000x256, .f32⟩
  | 59 => ⟨S_, .f32⟩
  | 60 => ⟨S50000x256, .f32⟩
  | 61 => ⟨S850000x1, .i32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000x128, .f32⟩
  | 70 => ⟨S1x800000, .i32⟩
  | 71 => ⟨S800000, .i32⟩
  | 72 => ⟨S1x800000, .i32⟩
  | 73 => ⟨S800000, .i32⟩
  | 74 => ⟨S50000, .i32⟩
  | 75 => ⟨S850000, .i32⟩
  | 76 => ⟨S850000, .i32⟩
  | 77 => ⟨S_, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x128, .f32⟩
  | 119 => ⟨S850000x1, .f32⟩
  | 120 => ⟨S850000x128, .f32⟩
  | 121 => ⟨S850000x128, .f32⟩
  | 122 => ⟨S_, .f32⟩
  | 123 => ⟨S50000x128, .f32⟩
  | 124 => ⟨S850000x1, .i32⟩
  | 125 => ⟨S50000x128, .f32⟩
  | 126 => ⟨S1x128, .f32⟩
  | 127 => ⟨S50000x128, .f32⟩
  | _ => ⟨S50000x512, .f32⟩

abbrev hbmTy0_1 (i : Nat) : BufTy := match i % 128 with
  | 0 => ⟨S50000x128, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  The two-layer graph convolution, as functions of arrays.

  A graph on 50000 nodes is given by 800000 directed edges (a [2, 800000] array: row 0 the sources, row 1 the
  targets). One self-loop per node is appended to both rows, so there are 850000 edges. The degree of a node is
  the number of extended edges that point at it; with dis = deg^(-1/2) (zero where the degree is not positive)
  every edge e carries the weight norm(e) = dis(src e) · dis(dst e). One layer multiplies the node features by a
  weight matrix, sends along every edge the source's row scaled by the edge's weight, and adds up at every node what
  arrives there; then a bias row is added. Two such layers, with max(·, 0) between them, are the whole function.

  Every definition below spells one step with the operations the printed reference uses for it, so that both printed
  programs can be read against the same terms.
-/
import proofs.«177668_j26336739459290_1_alg».proof.Proof.Gen.ReferenceIdeal

noncomputable section

namespace Cert.Gcn

open Cert.ReferenceIdeal Cert.ReferenceIdeal.Gen Idealize.ShloMosaic

variable {F : FTy → Type} [FloatOps F]

/-- The edges' sources followed by the nodes 0 … 49999 (the self-loops' sources). -/
def srcExt (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The edges' targets followed by the nodes 0 … 49999 (the self-loops' targets). -/
def dstExt (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- The degree of every node: a one added at its target for every extended edge. -/
def deg (dst : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant (F := F) S_ .f32 0x00000000#32)) (broadcastInDim S850000x1 ![0] bcast_S850000_S850000x1_0 dst) (broadcastInDim S850000 ![] bcast_S_S850000 (constant (F := F) S_ .f32 0x3F800000#32))

/-- deg^(-1/2) where the degree is positive, zero elsewhere. -/
def dis (d : (⟨S50000, .f32⟩ : BufTy).Contents (Elt F)) : (⟨S50000, .f32⟩ : BufTy).Contents (Elt F) :=
  select (cmpf .ogt d (broadcastInDim S50000 ![] bcast_S_S50000 (constant (F := F) S_ .f32 0x00000000#32))) (Host.rsqrt d) (broadcastInDim S50000 ![] bcast_S_S50000 (constant (F := F) S_ .f32 0x00000000#32))

/-- A node number read as an index from the end when it is negative: 50000 is added to it. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- The weight of every extended edge: dis at its source times dis at its target. -/
def norm (ds : (⟨S50000, .f32⟩ : BufTy).Contents (Elt F)) (src dst : (⟨S850000, .i32⟩ : BufTy).Contents (Elt F)) :
    (⟨S850000, .f32⟩ : BufTy).Contents (Elt F) :=
  mulf (Host.gather gather_S50000_S850000x1_S850000_n_0_n_n_0_1_1 ds (broadcastInDim S850000x1 ![0] bcast_S850000_S850000x1_0 (wrap src))) (Host.gather gather_S50000_S850000x1_S850000_n_0_n_n_0_1_1 ds (broadcastInDim S850000x1 ![0] bcast_S850000_S850000x1_0 (wrap dst)))

/-- The edge weights as a function of the edge list alone. -/
def normOf (ei : (⟨S2x800000, .i32⟩ : BufTy).Contents (Elt F)) : (⟨S850000, .f32⟩ : BufTy).Contents (Elt F) :=
  norm (dis (deg (dstExt ei))) (srcExt ei) (dstExt ei)

/-- The aggregation of 256 features: every edge sends its source's row of `h` times the edge's weight, and every
    node adds up what arrives. -/
def agg256 (h : (⟨S50000x256, .f32⟩ : BufTy).Contents (Elt F)) (src dst : (⟨S850000, .i32⟩ : BufTy).Contents (Elt F))
    (nrm : (⟨S850000, .f32⟩ : BufTy).Contents (Elt F)) : (⟨S50000x256, .f32⟩ : BufTy).Contents (Elt F) :=
  Host.scatterAdd scatter_S50000x256_S850000x1_S850000x256_1_0_0_1 (broadcastInDim S50000x256 ![] bcast_S_S50000x256 (constant (F := F) S_ .f32 0x00000000#32)) (broadcastInDim S850000x1 ![0] bcast_S850000_S850000x1_0 dst) (mulf (Host.gather gather_S50000x256_S850000x1_S850000x256_1_0_n_n_0_1_1256 h (broadcastInDim S850000x1 ![0] bcast_S850000_S850000x1_0 (wrap src))) (broadcastInDim S850000x256 ![0, 1] bcast_S850000x1_S850000x256_0_1 (broadcastInDim S850000x1 ![0] bcast_S850000_S850000x1_0 nrm)))

/-- The same aggregation of 128 features, then the bias row `b` added to every node's row. -/
def aggOut (h : (⟨S50000x128, .f32⟩ : BufTy).Contents (Elt F)) (src dst : (⟨S850000, .i32⟩ : BufTy).Contents (Elt F))
    (nrm : (⟨S850000, .f32⟩ : BufTy).Contents (Elt F)) (b : (⟨S128, .f32⟩ : BufTy).Contents (Elt F)) :
    (⟨S50000x128, .f32⟩ : BufTy).Contents (Elt F) :=
  addf (Host.scatterAdd scatter_S50000x128_S850000x1_S850000x128_1_0_0_1 (broadcastInDim S50000x128 ![] bcast_S_S50000x128 (constant (F := F) S_ .f32 0x00000000#32)) (broadcastInDim S850000x1 ![0] bcast_S850000_S850000x1_0 dst) (mulf (Host.gather gather_S50000x128_S850000x1_S850000x128_1_0_n_n_0_1_1128 h (broadcastInDim S850000x1 ![0] bcast_S850000_S850000x1_0 (wrap src))) (broadcastInDim S850000x128 ![0, 1] bcast_S850000x1_S850000x128_0_1 (broadcastInDim S850000x1 ![0] bcast_S850000_S850000x1_0 nrm)))) (broadcastInDim S50000x128 ![0, 1] bcast_S1x128_S50000x128_0_1 (broadcastInDim S1x128 ![1] bcast_S128_S1x128_1 b))

/-- The hidden activations: the first layer's aggregate plus its bias row, negative entries replaced by zero. -/
def hidden (a : (⟨S50000x256, .f32⟩ : BufTy).Contents (Elt F)) (b : (⟨S256, .f32⟩ : BufTy).Contents (Elt F)) :
    (⟨S50000x256, .f32⟩ : BufTy).Contents (Elt F) :=
  maximumf (addf a (broadcastInDim S50000x256 ![0, 1] bcast_S1x256_S50000x256_0_1 (broadcastInDim S1x256 ![1] bcast_S256_S1x256_1 b))) (broadcastInDim S50000x256 ![] bcast_S_S50000x256 (constant (F := F) S_ .f32 0x00000000#32))

/-- The first layer's product: the node features times the 512 × 256 weights. -/
def dot1 (x : (⟨S50000x512, .f32⟩ : BufTy).Contents (Elt F)) (w : (⟨S512x256, .f32⟩ : BufTy).Contents (Elt F)) :
    (⟨S50000x256, .f32⟩ : BufTy).Contents (Elt F) :=
  Host.dotGeneral dot_S50000x512_S512x256_S50000x256_1_0_0_1_n_n none x w

/-- The second layer's product: the hidden activations times the 256 × 128 weights. -/
def dot2 (h : (⟨S50000x256, .f32⟩ : BufTy).Contents (Elt F)) (w : (⟨S256x128, .f32⟩ : BufTy).Contents (Elt F)) :
    (⟨S50000x128, .f32⟩ : BufTy).Contents (Elt F) :=
  Host.dotGeneral dot_S50000x256_S256x128_S50000x128_1_0_0_1_n_n none h w

/-- The network: two graph convolutions with max(·, 0) between them. -/
def out (x : (⟨S50000x512, .f32⟩ : BufTy).Contents (Elt F)) (ei : (⟨S2x800000, .i32⟩ : BufTy).Contents (Elt F))
    (w1 : (⟨S512x256, .f32⟩ : BufTy).Contents (Elt F)) (b1 : (⟨S256, .f32⟩ : BufTy).Contents (Elt F))
    (w2 : (⟨S256x128, .f32⟩ : BufTy).Contents (Elt F)) (b2 : (⟨S128, .f32⟩ : BufTy).Contents (Elt F)) :
    (⟨S50000x128, .f32⟩ : BufTy).Contents (Elt F) :=
  aggOut (dot2 (hidden (agg256 (dot1 x w1) (srcExt ei) (dstExt ei) (normOf ei)) b1) w2) (srcExt ei) (dstExt ei) (normOf ei) b2

end Cert.Gcn

end
-- ==== Proof.RefValue.lean ====
/-
  The reference program computes the network.

  The reference's @main is a line of 123 host operations. What its result buffer holds after the line, from any
  buffer contents, is the two-layer graph convolution of the contents of the six argument buffers: the line computes
  the edge weights twice, once per layer, from the same edge list, and the network's definition shares them. No
  operation of the line writes an argument buffer.
-/
import proofs.«177668_j26336739459290_1_alg».proof.Proof.RefRun
import proofs.«177668_j26336739459290_1_alg».proof.Proof.Spec

noncomputable section

namespace Cert.Gcn.Ref

open Cert.ReferenceIdeal Cert.ReferenceIdeal.Gen Cert.ReferenceIdeal.RunP Idealize.ShloMosaic Idealize.ShloMosaic.TcCoe
  Idealize.SL.Sem Idealize.ShloMosaic.StableHlo

variable {F : FTy → Type} [FloatOps F]

set_option maxRecDepth 8192 in
set_option maxHeartbeats 40000000 in
/-- After the reference's operations the result buffer holds the network of the argument buffers' contents. -/
theorem result_eq (V : Valuation τ sig (Elt F)) :
    after ops V (Proc.devRef .tc main_v94)
      = Cert.Gcn.out (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results_simp
  rfl

set_option maxRecDepth 8192 in
set_option maxHeartbeats 40000000 in
/-- No operation writes an argument buffer. -/
theorem args_kept (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5) := by
  refine ⟨?_, ?_, ?_, ?_, ?_, ?_⟩ <;> after_results_simp

end Cert.Gcn.Ref

end
-- ==== Proof.KernelRun.lean ====
/-
  The kernel program's run, with its result named.

  The kernel's @main is seven segments: three lines of host operations, the first kernel's region, a line of host
  operations, the second kernel's region, a last line of host operations. The buffer contents at every segment boundary
  are a fold from the launch memory: a line of host operations applies its operations in order, a region leaves each of
  its arrays at what its write-backs left and every other buffer as it found it. Every weakly fair execution terminates
  with every unscoped buffer at the last boundary's contents; in particular the result buffer, and each argument buffer,
  which no segment writes, at its launch contents.
-/
import proofs.«177668_j26336739459290_1_alg».proof.Proof.Gen.KernelIdeal.Frame

set_option maxRecDepth 16384

noncomputable section

namespace Cert.Gcn.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates, nothing faulting, with the result buffer at the last
    boundary's contents and the argument buffers as launched. -/
theorem run : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.Gcn.Ker

end
-- ==== Proof.Prod.lean ====
/-
  The two matrix products as functions of whole arrays, entry by entry.
-/
import Idealize.ShloMosaic.Lib.ValueIdx
import Idealize.ShloMosaic.PureOps.Ideal

noncomputable section

open scoped BigOperators

namespace Cert.Gcn

open Idealize.ShloMosaic Idealize.ShloMosaic.ValueIdx

/-- The product of an M × K matrix and a K × N matrix on the extended reals: entry (r, c) is the sum over l of
    a(r, l) · b(l, c). -/
def mm (M K N : ℕ) (a : (⟨2, ![M, K]⟩ : Shape).Idx → EReal) (b : (⟨2, ![K, N]⟩ : Shape).Idx → EReal) :
    (⟨2, ![M, N]⟩ : Shape).Idx → EReal :=
  fun i => ∑ l : Fin K, a (ix2 (i 0) l) * b (ix2 l (i 1))

/-- The second layer's product with its input prepared on the way: to every row of `a` the row `b` is added and
    negative entries are replaced by zero (the maximum with the zero `z`), then the product with `w` is taken. -/
def mmRelu (M K N : ℕ) (z : EReal) (a : (⟨2, ![M, K]⟩ : Shape).Idx → EReal) (b : (⟨2, ![1, K]⟩ : Shape).Idx → EReal)
    (w : (⟨2, ![K, N]⟩ : Shape).Idx → EReal) : (⟨2, ![M, N]⟩ : Shape).Idx → EReal :=
  fun i => ∑ l : Fin K, max (a (ix2 (i 0) l) + b (ix2 (0 : Fin 1) l)) z * w (ix2 l (i 1))

end Cert.Gcn

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.Bridge.lean ====
/-
  The host's two products, entry by entry.

  At exact values the host's product of the features with the first weights is the textbook product. The host's second
  product, of the hidden activations with the second weights, has at (r, c) the sum over l of
  max(a(r, l) + b(l), 0) · w(l, c): the hidden activations are the aggregate plus the bias row, negative entries replaced
  by zero. The kernel receives the bias as a 1 × 256 row; reading that row at (0, l) is reading the bias at l.
-/
import proofs.«177668_j26336739459290_1_alg».proof.Proof.Spec
import proofs.«177668_j26336739459290_1_alg».proof.Proof.Prod
import proofs.«177668_j26336739459290_1_alg».proof.Proof.LibPlainDot
import Idealize.ShloMosaic.Lib.Pipeline.Value
import Idealize.ShloMosaic.Lib.ValueIdx

noncomputable section

open scoped BigOperators

namespace Cert.Gcn

open Cert.ReferenceIdeal Cert.ReferenceIdeal.Gen Idealize.ShloMosaic Idealize.ShloMosaic.ValueIdx

/-- The first layer's host product is the textbook product. -/
theorem dot1_eq (x : (⟨S50000x512, .f32⟩ : BufTy).Contents (Elt Ideal)) (w : (⟨S512x256, .f32⟩ : BufTy).Contents (Elt Ideal)) :
    dot1 (F := Ideal) x w = mm 50000 512 256 x w := by
  funext i
  obtain ⟨p, q, rfl⟩ : ∃ (p : Fin 50000) (q : Fin 256), i = ix2 p q := ⟨i 0, i 1, eq_ix2 i⟩
  unfold dot1 mm
  exact Cert.LibPlainDot.dotGeneral_apply none _ x w p q

/-- The bias row broadcast over the 50000 rows, read at (r, l), is the bias at l. -/
theorem bias_apply (b : (⟨S256, .f32⟩ : BufTy).Contents (Elt Ideal)) (p : Fin 50000) (l : Fin 256) :
    broadcastInDim S50000x256 ![0, 1] bcast_S1x256_S50000x256_0_1 (broadcastInDim S1x256 ![1] bcast_S256_S1x256_1 b) (ix2 p l)
      = b (ix1 l) := by
  rw [broadcastInDim_apply _ bcast_S1x256_S50000x256_0_1 _ (ix2 p l) (ix2 (0 : Fin 1) l) (fun a => match a with
    | ⟨0, _⟩ => by show 0 = if (1 : Nat) = 1 then 0 else p.val; rw [if_pos rfl]
    | ⟨1, _⟩ => by show l.val = if (256 : Nat) = 1 then 0 else l.val; rw [if_neg (by decide)])]
  exact broadcastInDim_apply _ bcast_S256_S1x256_1 b (ix2 (0 : Fin 1) l) (ix1 l) (fun a => match a with
    | ⟨0, _⟩ => by show l.val = if (256 : Nat) = 1 then 0 else l.val; rw [if_neg (by decide)])

/-- The bias cast to a 1 × 256 row, read at (0, l), is the bias at l. -/
theorem row_apply (b : (⟨S256, .f32⟩ : BufTy).Contents (Elt Ideal)) (h : S256.ShapeCasts S1x256) (l : Fin 256) :
    shapeCast S1x256 b h (ix2 (0 : Fin 1) l) = b (ix1 l) := by
  refine shapeCast_apply b h (ix2 (0 : Fin 1) l) (ix1 l) ?_
  rw [Shape.rowMajor_val_one, Shape.rowMajor_val_two]
  show l.val = 0 * 256 + l.val
  omega

/-- The zero constant broadcast over the hidden activations' shape, read anywhere, is zero. -/
theorem zero_apply (i : S50000x256.Idx) :
    broadcastInDim S50000x256 ![] bcast_S_S50000x256 (constant (F := Ideal) S_ .f32 0x00000000#32) i
      = Ideal.ofBits .f32 0x00000000#32 :=
  broadcastInDim_apply _ bcast_S_S50000x256 (constant (F := Ideal) S_ .f32 0x00000000#32) i (fun a => a.elim0) (fun a => a.elim0)

/-- The second layer's host product of the hidden activations is the product with the bias added and negative entries
    replaced by zero on the way, the bias given as a 1 × 256 row. -/
theorem dot2_hidden_eq (a : (⟨S50000x256, .f32⟩ : BufTy).Contents (Elt Ideal)) (b : (⟨S256, .f32⟩ : BufTy).Contents (Elt Ideal))
    (w : (⟨S256x128, .f32⟩ : BufTy).Contents (Elt Ideal)) (h : S256.ShapeCasts S1x256) :
    dot2 (F := Ideal) (hidden a b) w
      = mmRelu 50000 256 128 (Ideal.ofBits .f32 0x00000000#32) a (shapeCast S1x256 b h) w := by
  funext i
  obtain ⟨p, q, rfl⟩ : ∃ (p : Fin 50000) (q : Fin 128), i = ix2 p q := ⟨i 0, i 1, eq_ix2 i⟩
  unfold dot2 mmRelu
  refine (Cert.LibPlainDot.dotGeneral_apply none _ (hidden a b) w p q).trans ?_
  refine Finset.sum_congr rfl fun l _ => ?_
  unfold hidden
  rw [maximumf_apply, addf_apply, bias_apply, zero_apply, row_apply]

end Cert.Gcn

end
-- ==== Proof.Blocks.lean ====
/-
  What one grid point of each kernel computes, entry by entry.

  Both kernels multiply a block of 2000 rows by a whole weight matrix, after rounding both factors to bf16, which is the
  identity on exact values: entry (p, q) of the product is the sum over l of row p at l times the weights at (l, q).
  The second kernel first adds the bias row to every row of its block and replaces negative entries by zero.
-/
import proofs.«177668_j26336739459290_1_alg».proof.Proof.Gen.KernelIdeal.Skeleton
import proofs.«177668_j26336739459290_1_alg».proof.Proof.LibPlainDot
import Idealize.ShloMosaic.Lib.Pipeline.Value
import Idealize.ShloMosaic.Lib.ValueLayout
import Idealize.ShloMosaic.Lib.ValueIdx

noncomputable section

open scoped BigOperators

namespace Cert.Gcn.Blocks

open Cert.KernelIdeal Cert.KernelIdeal.Gen Idealize.ShloMosaic Idealize.ShloMosaic.ValueIdx

/-- The first kernel's stored block at (p, q): row p of the feature block against column q of the weights. -/
theorem pay0_apply (a : Vec Ideal S2000x512 .f32) (b : Vec Ideal S512x256 .f32) (p : Fin 2000) (q : Fin 256) :
    k0_pay1 a b (ix2 p q) = ∑ l : Fin 512, a (ix2 p l) * b (ix2 l q) := by
  unfold k0_pay1
  exact Cert.LibPlainDot.matmul_zero_apply none (truncf .bf16 a bitsLt_bf16_f32) (truncf .bf16 b bitsLt_bf16_f32) p q

/-- The second kernel's stored block at (p, q): row p of the aggregate block plus the bias row, negative entries
    replaced by zero, against column q of the weights. -/
theorem pay1_apply (a : Vec Ideal S2000x256 .f32) (b : Vec Ideal S1x256 .f32) (w : Vec Ideal S256x128 .f32)
    (p : Fin 2000) (q : Fin 128) :
    k1_pay1 a b w (ix2 p q)
      = ∑ l : Fin 256, max (a (ix2 p l) + b (ix2 (0 : Fin 1) l)) (Ideal.ofBits .f32 0x00000000#32) * w (ix2 l q) := by
  unfold k1_pay1
  refine (Cert.LibPlainDot.matmul_zero_apply none _ _ p q).trans ?_
  refine Finset.sum_congr rfl fun l _ => ?_
  simp only [truncf_apply, maximumf_apply, addf_apply, broadcast_apply, shapeCast_self]
  rw [broadcastTo_1b_ab_apply]
  rfl

end Cert.Gcn.Blocks

end
-- ==== Proof.Region0.lean ====
/-
  The first kernel's output array is the whole product.

  The grid has 25 points; point t stages rows 2000·t … 2000·t + 1999 of the features (all 512 columns) and the whole
  512 × 256 weight matrix, and writes back rows 2000·t … 2000·t + 1999 of the output. What it writes is the product of
  its two blocks, so entry (r, c) of the block is entry (2000·t + r, c) of the product of the whole arrays. The 25 row
  blocks tile the 50000 rows, so the output array ends as the whole product — whatever the arrays held when the region
  was entered.
-/
import proofs.«177668_j26336739459290_1_alg».proof.Proof.Gen.KernelIdeal.Frame
import proofs.«177668_j26336739459290_1_alg».proof.Proof.Blocks
import proofs.«177668_j26336739459290_1_alg».proof.Proof.Prod
import Idealize.ShloMosaic.Lib.Pipeline.Value

set_option maxRecDepth 16384

noncomputable section

open scoped BigOperators

namespace Cert.Gcn.Reg0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the feature and output windows move down one row block per
    point, the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t is rows 2000·t … of the feature array. -/
theorem feat_apply (c : Dev nD) (t : Fin cfg0.N) (x : S2000x512.Idx) (k : S50000x512.Idx)
    (hk0 : (k 0).val = t.val * 2000 + (x 0).val) (hk1 : (k 1).val = (x 1).val) :
    (iblk0 V c 0 t : Vec Ideal S2000x512 .f32) x = (V c main_arg0 : S50000x512.Idx → EReal) k := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 512 + 1 * (x 1).val = (k 1).val; rw [e1, hk1]; omega

/-- The weight window's block at every point is the whole weight array. -/
theorem wt_apply (c : Dev nD) (t : Fin cfg0.N) (x : S512x256.Idx) :
    (iblk0 V c 1 t : Vec Ideal S512x256 .f32) x = (V c main_arg2 : S512x256.Idx → EReal) x := by
  obtain ⟨-, -, e2, e3, -, -⟩ := idx_facts t
  unfold iblk0
  rw [View.read_apply]
  show V c main_arg2 _ = V c main_arg2 _
  congr 1
  funext a
  apply Fin.ext
  match a with
  | ⟨0, _⟩ => show win0_1.index t 0 * 512 + 1 * (x 0).val = (x 0).val; rw [e2]; omega
  | ⟨1, _⟩ => show win0_1.index t 1 * 256 + 1 * (x 1).val = (x 1).val; rw [e3]; omega

/-- The product of a row block whose rows are rows tv·2000 … of `A` with the whole of `B`, at an entry, is the
    product of the whole arrays at the entry tv·2000 rows further down. -/
theorem block_eq (A : S50000x512.Idx → EReal) (B : S512x256.Idx → EReal) (a : Vec Ideal S2000x512 .f32)
    (b : Vec Ideal S512x256 .f32) (tv : ℕ)
    (ha : ∀ (x : S2000x512.Idx) (k : S50000x512.Idx), (k 0).val = tv * 2000 + (x 0).val → (k 1).val = (x 1).val → a x = A k)
    (hb : ∀ x : S512x256.Idx, b x = B x)
    (j : S2000x256.Idx) (i : S50000x256.Idx) (hi0 : (i 0).val = tv * 2000 + (j 0).val) (hi1 : (i 1).val = (j 1).val) :
    k0_pay1 a b j = mm 50000 512 256 A B i := by
  obtain ⟨p, q, rfl⟩ : ∃ (p : Fin 2000) (q : Fin 256), j = ix2 p q := ⟨j 0, j 1, eq_ix2 j⟩
  rw [Cert.Gcn.Blocks.pay0_apply]
  unfold mm
  refine Finset.sum_congr rfl fun l _ => ?_
  have hq : i 1 = q := Fin.ext hi1
  rw [ha (ix2 p l) (ix2 (i 0) l) hi0 rfl, hb, hq]

/-- What point t writes back is block t of the whole product. -/
theorem flushed_eq (c : Dev nD) (t : Fin cfg0.N) :
    (dat0 V c).flushed 2 t
      = ((cfg0.win 2).blk t).view.read (Elt Ideal) (mm 50000 512 256 (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  obtain ⟨-, -, -, -, e4, e5⟩ := idx_facts t
  funext j
  refine block_eq (V c main_arg0) (V c main_arg2) (iblk0 V c 0 t) (iblk0 V c 1 t) t.val
    (fun x k h0 h1 => feat_apply V c t x k h0 h1) (fun x => wt_apply V c t x) j (((cfg0.win 2).blk t).view.emb j) ?_ ?_
  · show win0_2.index t 0 * 2000 + 1 * (j 0).val = t.val * 2000 + (j 0).val
    rw [e4]; omega
  · show win0_2.index t 1 * 256 + 1 * (j 1).val = (j 1).val
    rw [e5]; omega

/-- An index of the output array is in point t's block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Every index of the output array is in the block of the point its row falls in. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : grid0.N = 25 := N_0
  have ht : (i 0).val / 2000 < cfg0.N := by show (i 0).val / 2000 < grid0.N; rw [hN]; omega
  refine ⟨⟨(i 0).val / 2000, ht⟩, flush0_2 _, ?_⟩
  rw [mem_blk]
  obtain ⟨-, -, -, -, e4, e5⟩ := idx_facts ⟨(i 0).val / 2000, ht⟩
  intro a
  match a with
  | ⟨0, _⟩ =>
    show win0_2.index ⟨(i 0).val / 2000, ht⟩ 0 * 2000 ≤ (i 0).val ∧ (i 0).val < win0_2.index ⟨(i 0).val / 2000, ht⟩ 0 * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ 1 * 256 ≤ (i 1).val ∧ (i 1).val < win0_2.index ⟨(i 0).val / 2000, ht⟩ 1 * 256 + 256
    rw [e5]; omega

/-- The output array after the region: the product of the feature array and the weight array as the region found
    them. -/
theorem final (c : Dev nD) :
    (dat0 V c).arrAt 2 cfg0.N = mm 50000 512 256 (V c main_arg0) (V c main_arg2) :=
  (dat0 V c).arrAt_eq_of_cover 2 (mm 50000 512 256 (V c main_arg0) (V c main_arg2)) (fun t _ => flushed_eq V c t) cover

end Cert.Gcn.Reg0

end
-- ==== Proof.Region1.lean ====
/-
  The second kernel's output array is the whole second-layer product.

  The grid has 25 points; point t stages rows 2000·t … 2000·t + 1999 of the first layer's aggregate (all 256 columns),
  the 1 × 256 bias row and the whole 256 × 128 weight matrix, and writes back rows 2000·t … of the output. What it
  writes is: the bias row added to every row of its block, negative entries replaced by zero, times the weights. So entry
  (r, c) of the block is entry (2000·t + r, c) of the same function of the whole arrays, and the 25 row blocks tile the
  50000 rows — whatever the arrays held when the region was entered.
-/
import proofs.«177668_j26336739459290_1_alg».proof.Proof.Gen.KernelIdeal.Frame
import proofs.«177668_j26336739459290_1_alg».proof.Proof.Blocks
import proofs.«177668_j26336739459290_1_alg».proof.Proof.Prod
import Idealize.ShloMosaic.Lib.Pipeline.Value

set_option maxRecDepth 16384

noncomputable section

open scoped BigOperators

namespace Cert.Gcn.Reg1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the aggregate and output windows move down one row block per
    point, the bias and weight windows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregate window's block at point t is rows 2000·t … of the aggregate array. -/
theorem agg_apply (c : Dev nD) (t : Fin cfg1.N) (x : S2000x256.Idx) (k : S50000x256.Idx)
    (hk0 : (k 0).val = t.val * 2000 + (x 0).val) (hk1 : (k 1).val = (x 1).val) :
    (iblk1 V c 0 t : Vec Ideal S2000x256 .f32) x = (V c main_v43 : S50000x256.Idx → EReal) k := by
  obtain ⟨e0, e1, -, -, -, -, -, -⟩ := idx_facts t
  unfold iblk1
  rw [View.read_apply]
  show V c main_v43 _ = V c main_v43 _
  congr 1
  funext a
  apply Fin.ext
  match a with
  | ⟨0, _⟩ => show win1_0.index t 0 * 2000 + 1 * (x 0).val = (k 0).val; rw [e0, hk0]; omega
  | ⟨1, _⟩ => show win1_0.index t 1 * 256 + 1 * (x 1).val = (k 1).val; rw [e1, hk1]; omega

/-- The bias window's block at every point is the whole bias row. -/
theorem bias_apply (c : Dev nD) (t : Fin cfg1.N) (x : S1x256.Idx) :
    (iblk1 V c 1 t : Vec Ideal S1x256 .f32) x = (V c main_v44 : S1x256.Idx → EReal) x := by
  obtain ⟨-, -, e2, e3, -, -, -, -⟩ := idx_facts t
  unfold iblk1
  rw [View.read_apply]
  show V c main_v44 _ = V c main_v44 _
  congr 1
  funext a
  apply Fin.ext
  match a with
  | ⟨0, _⟩ => show win1_1.index t 0 * 1 + 1 * (x 0).val = (x 0).val; rw [e2]; omega
  | ⟨1, _⟩ => show win1_1.index t 1 * 256 + 1 * (x 1).val = (x 1).val; rw [e3]; omega

/-- The weight window's block at every point is the whole weight array. -/
theorem wt_apply (c : Dev nD) (t : Fin cfg1.N) (x : S256x128.Idx) :
    (iblk1 V c 2 t : Vec Ideal S256x128 .f32) x = (V c main_arg4 : S256x128.Idx → EReal) x := by
  obtain ⟨-, -, -, -, e4, e5, -, -⟩ := idx_facts t
  unfold iblk1
  rw [View.read_apply]
  show V c main_arg4 _ = V c main_arg4 _
  congr 1
  funext a
  apply Fin.ext
  match a with
  | ⟨0, _⟩ => show win1_2.index t 0 * 256 + 1 * (x 0).val = (x 0).val; rw [e4]; omega
  | ⟨1, _⟩ => show win1_2.index t 1 * 128 + 1 * (x 1).val = (x 1).val; rw [e5]; omega

/-- The body's result on a row block whose rows are rows tv·2000 … of `A`, with the whole bias row and weights, at an
    entry, is the same function of the whole arrays at the entry tv·2000 rows further down. -/
theorem block_eq (A : S50000x256.Idx → EReal) (B : S1x256.Idx → EReal) (W : S256x128.Idx → EReal)
    (a : Vec Ideal S2000x256 .f32) (b : Vec Ideal S1x256 .f32) (w : Vec Ideal S256x128 .f32) (tv : ℕ)
    (ha : ∀ (x : S2000x256.Idx) (k : S50000x256.Idx), (k 0).val = tv * 2000 + (x 0).val → (k 1).val = (x 1).val → a x = A k)
    (hb : ∀ x : S1x256.Idx, b x = B x) (hw : ∀ x : S256x128.Idx, w x = W x)
    (j : S2000x128.Idx) (i : S50000x128.Idx) (hi0 : (i 0).val = tv * 2000 + (j 0).val) (hi1 : (i 1).val = (j 1).val) :
    k1_pay1 a b w j = mmRelu 50000 256 128 (Ideal.ofBits .f32 0x00000000#32) A B W i := by
  obtain ⟨p, q, rfl⟩ : ∃ (p : Fin 2000) (q : Fin 128), j = ix2 p q := ⟨j 0, j 1, eq_ix2 j⟩
  rw [Cert.Gcn.Blocks.pay1_apply]
  unfold mmRelu
  refine Finset.sum_congr rfl fun l _ => ?_
  have hq : i 1 = q := Fin.ext hi1
  rw [ha (ix2 p l) (ix2 (i 0) l) hi0 rfl, hb, hw, hq]

/-- What point t writes back is block t of the whole second-layer product. -/
theorem flushed_eq (c : Dev nD) (t : Fin cfg1.N) :
    (dat1 V c).flushed 3 t
      = ((cfg1.win 3).blk t).view.read (Elt Ideal)
          (mmRelu 50000 256 128 (Ideal.ofBits .f32 0x00000000#32) (V c main_v43) (V c main_v44) (V c main_arg4)) := by
  show (cfg1.win 3).cut (grid1.coords t) ((dat1 V c).after 3 t) = _
  rw [after1_3]
  unfold out1_3
  rw [View.canon_unit_zero hz]
  simp only [View.ld_unit_zero (S := S2000x256) hz, View.ld_unit_zero (S := S1x256) hz, View.ld_unit_zero (S := S256x128) hz]
  obtain ⟨-, -, -, -, -, -, e6, e7⟩ := idx_facts t
  funext j
  refine block_eq (V c main_v43) (V c main_v44) (V c main_arg4) (iblk1 V c 0 t) (iblk1 V c 1 t) (iblk1 V c 2 t) t.val
    (fun x k h0 h1 => agg_apply V c t x k h0 h1) (fun x => bias_apply V c t x) (fun x => wt_apply V c t x)
    j (((cfg1.win 3).blk t).view.emb j) ?_ ?_
  · show win1_3.index t 0 * 2000 + 1 * (j 0).val = t.val * 2000 + (j 0).val
    rw [e6]; omega
  · show win1_3.index t 1 * 128 + 1 * (j 1).val = (j 1).val
    rw [e7]; omega

/-- An index of the output array is in point t's block iff each coordinate is in the block's range on its axis. -/
theorem mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v45).slice (win1_3.rect t)).set ↔ _
  rw [View.set_slice_whole, Rect.mem_set_unit]
  exact Iff.rfl

/-- Every index of the output array is in the block of the point its row falls in. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 25 := N_1
  have ht : (i 0).val / 2000 < cfg1.N := by show (i 0).val / 2000 < grid1.N; rw [hN]; omega
  refine ⟨⟨(i 0).val / 2000, ht⟩, flush1_3 _, ?_⟩
  rw [mem_blk]
  obtain ⟨-, -, -, -, -, -, e6, e7⟩ := idx_facts ⟨(i 0).val / 2000, ht⟩
  intro a
  match a with
  | ⟨0, _⟩ =>
    show win1_3.index ⟨(i 0).val / 2000, ht⟩ 0 * 2000 ≤ (i 0).val ∧ (i 0).val < win1_3.index ⟨(i 0).val / 2000, ht⟩ 0 * 2000 + 2000
    rw [e6]; show (i 0).val / 2000 * 2000 ≤ (i 0).val ∧ (i 0).val < (i 0).val / 2000 * 2000 + 2000; omega
  | ⟨1, _⟩ =>
    show win1_3.index ⟨(i 0).val / 2000, ht⟩ 1 * 128 ≤ (i 1).val ∧ (i 1).val < win1_3.index ⟨(i 0).val / 2000, ht⟩ 1 * 128 + 128
    rw [e7]; omega

/-- The output array after the region: the second-layer product of the aggregate, the bias row and the weights as the
    region found them. -/
theorem final (c : Dev nD) :
    (dat1 V c).arrAt 3 cfg1.N
      = mmRelu 50000 256 128 (Ideal.ofBits .f32 0x00000000#32) (V c main_v43) (V c main_v44) (V c main_arg4) :=
  (dat1 V c).arrAt_eq_of_cover 3 _ (fun t _ => flushed_eq V c t) cover

end Cert.Gcn.Reg1

end
-- ==== Proof.KernelValue.lean ====
/-
  The kernel program computes the network.

  The kernel program's buffer contents at its segment boundaries are a fold from the launch memory. Read stage by stage:
  the first three lines of host operations compute, from the edge list, the extended source and target lists and the
  edge weights; the first region leaves the product of the features with the first weights; the next line aggregates
  that product along the edges and reshapes the first bias to a row; the second region leaves the second-layer product of
  the aggregate (bias added, negatives replaced by zero on the way); the last line aggregates again and adds the second
  bias. Every stage is stated over ARBITRARY entry contents and instantiated at the fold afterwards. The edge weights are
  computed once and used by both aggregations, where the network's definition (and the reference) computes them per layer:
  the same function of the same edge list.
-/
import proofs.«177668_j26336739459290_1_alg».proof.Proof.Gen.KernelIdeal.Frame
import proofs.«177668_j26336739459290_1_alg».proof.Proof.Spec
import proofs.«177668_j26336739459290_1_alg».proof.Proof.Bridge
import proofs.«177668_j26336739459290_1_alg».proof.Proof.Region0
import proofs.«177668_j26336739459290_1_alg».proof.Proof.Region1
import Idealize.ShloMosaic.Lib.StableHlo.Run

set_option maxRecDepth 16384

noncomputable section

namespace Cert.Gcn.KVal

open Cert.KernelIdeal Cert.KernelIdeal.Gen
open Idealize.ShloMosaic Idealize.ShloMosaic.TcCoe Idealize.SL.Sem Idealize.ShloMosaic.StableHlo

/-! ## The lines of host operations, over arbitrary contents -/

section Lines

variable {F : FTy → Type} [FloatOps F] (V : Valuation τ sig (Elt F))

set_option maxHeartbeats 4000000 in
/-- The first three lines leave the extended source list in its buffer. -/
theorem lineA_src : after hostOps0_2 (after hostOps0_1 (after hostOps0 V)) (Proc.devRef .tc main_v5)
    = Cert.Gcn.srcExt (V (Proc.devRef .tc main_arg1)) := by
  dsimp only [hostOps0, hostOps0_1, hostOps0_2]
  after_results_simp
  rfl

set_option maxHeartbeats 4000000 in
/-- The first three lines leave the extended target list in its buffer. -/
theorem lineA_dst : after hostOps0_2 (after hostOps0_1 (after hostOps0 V)) (Proc.devRef .tc main_v6)
    = Cert.Gcn.dstExt (V (Proc.devRef .tc main_arg1)) := by
  dsimp only [hostOps0, hostOps0_1, hostOps0_2]
  after_results_simp
  rfl

set_option maxHeartbeats 4000000 in
/-- The first three lines leave the edge weights in their buffer. -/
theorem lineA_norm : after hostOps0_2 (after hostOps0_1 (after hostOps0 V)) (Proc.devRef .tc main_v29)
    = Cert.Gcn.normOf (V (Proc.devRef .tc main_arg1)) := by
  dsimp only [hostOps0, hostOps0_1, hostOps0_2]
  after_results_simp
  rfl

set_option maxHeartbeats 4000000 in
/-- The first three lines write no argument buffer. -/
theorem lineA_args : after hostOps0_2 (after hostOps0_1 (after hostOps0 V)) (Proc.devRef .tc main_arg0) = V (Proc.devRef .tc main_arg0)
    ∧ after hostOps0_2 (after hostOps0_1 (after hostOps0 V)) (Proc.devRef .tc main_arg2) = V (Proc.devRef .tc main_arg2)
    ∧ after hostOps0_2 (after hostOps0_1 (after hostOps0 V)) (Proc.devRef .tc main_arg3) = V (Proc.devRef .tc main_arg3)
    ∧ after hostOps0_2 (after hostOps0_1 (after hostOps0 V)) (Proc.devRef .tc main_arg4) = V (Proc.devRef .tc main_arg4)
    ∧ after hostOps0_2 (after hostOps0_1 (after hostOps0 V)) (Proc.devRef .tc main_arg5) = V (Proc.devRef .tc main_arg5) := by
  dsimp only [hostOps0, hostOps0_1, hostOps0_2]
  refine ⟨?_, ?_, ?_, ?_, ?_⟩ <;> after_results_simp

set_option maxHeartbeats 4000000 in
/-- The line between the regions aggregates the first product along the edges. -/
theorem lineB_agg : after hostOps1 V (Proc.devRef .tc main_v43)
    = Cert.Gcn.agg256 (V (Proc.devRef .tc main_v30)) (V (Proc.devRef .tc main_v5)) (V (Proc.devRef .tc main_v6))
        (V (Proc.devRef .tc main_v29)) := by
  dsimp only [hostOps1]
  after_results_simp
  rfl

set_option maxHeartbeats 4000000 in
/-- The line between the regions reshapes the first bias to a 1 × 256 row. -/
theorem lineB_bias : after hostOps1 V (Proc.devRef .tc main_v44)
    = shapeCast S1x256 (V (Proc.devRef .tc main_arg3)) shapeCasts_S256_S1x256 := by
  dsimp only [hostOps1]
  after_results_simp
  rfl

set_option maxHeartbeats 4000000 in
/-- The line between the regions keeps the edge lists, the edge weights and the remaining arguments. -/
theorem lineB_kept : after hostOps1 V (Proc.devRef .tc main_v5) = V (Proc.devRef .tc main_v5)
    ∧ after hostOps1 V (Proc.devRef .tc main_v6) = V (Proc.devRef .tc main_v6)
    ∧ after hostOps1 V (Proc.devRef .tc main_v29) = V (Proc.devRef .tc main_v29)
    ∧ after hostOps1 V (Proc.devRef .tc main_arg4) = V (Proc.devRef .tc main_arg4)
    ∧ after hostOps1 V (Proc.devRef .tc main_arg5) = V (Proc.devRef .tc main_arg5) := by
  dsimp only [hostOps1]
  refine ⟨?_, ?_, ?_, ?_, ?_⟩ <;> after_results_simp

set_option maxHeartbeats 4000000 in
/-- The last line aggregates the second product along the edges and adds the second bias. -/
theorem lineC_out : after hostOps2 V (Proc.devRef .tc main_v61)
    = Cert.Gcn.aggOut (V (Proc.devRef .tc main_v45)) (V (Proc.devRef .tc main_v5)) (V (Proc.devRef .tc main_v6))
        (V (Proc.devRef .tc main_v29)) (V (Proc.devRef .tc main_arg5)) := by
  dsimp only [hostOps2]
  after_results_simp
  rfl

end Lines

/-! ## The fold, read -/

variable (m : (ℓ : Loc nD τ sig) → Buf (Elt Ideal) ℓ) (ρ : Dev nD → PrngReg)

/-- At the first region's entry: the edge lists, the edge weights, and the arguments as launched. -/
theorem W3_src (c : Dev nD) : W3 m ρ c (Proc.devRef .tc main_v5) = Cert.Gcn.srcExt (m ((c : Thread nD τ).loc main_arg1)) :=
  lineA_src (W0 m ρ c)
theorem W3_dst (c : Dev nD) : W3 m ρ c (Proc.devRef .tc main_v6) = Cert.Gcn.dstExt (m ((c : Thread nD τ).loc main_arg1)) :=
  lineA_dst (W0 m ρ c)
theorem W3_norm (c : Dev nD) : W3 m ρ c (Proc.devRef .tc main_v29) = Cert.Gcn.normOf (m ((c : Thread nD τ).loc main_arg1)) :=
  lineA_norm (W0 m ρ c)
theorem W3_arg0 (c : Dev nD) : W3 m ρ c (Proc.devRef .tc main_arg0) = m ((c : Thread nD τ).loc main_arg0) := (lineA_args (W0 m ρ c)).1
theorem W3_arg2 (c : Dev nD) : W3 m ρ c (Proc.devRef .tc main_arg2) = m ((c : Thread nD τ).loc main_arg2) := (lineA_args (W0 m ρ c)).2.1
theorem W3_arg3 (c : Dev nD) : W3 m ρ c (Proc.devRef .tc main_arg3) = m ((c : Thread nD τ).loc main_arg3) := (lineA_args (W0 m ρ c)).2.2.1
theorem W3_arg4 (c : Dev nD) : W3 m ρ c (Proc.devRef .tc main_arg4) = m ((c : Thread nD τ).loc main_arg4) := (lineA_args (W0 m ρ c)).2.2.2.1
theorem W3_arg5 (c : Dev nD) : W3 m ρ c (Proc.devRef .tc main_arg5) = m ((c : Thread nD τ).loc main_arg5) := (lineA_args (W0 m ρ c)).2.2.2.2

/-- At the first region's exit its output array holds the first layer's host product of the arguments. -/
theorem W4_prod (c : Dev nD) : W4 m ρ c (Proc.devRef .tc main_v30)
    = Cert.Gcn.dot1 (F := Ideal) (m ((c : Thread nD τ).loc main_arg0)) (m ((c : Thread nD τ).loc main_arg2)) := by
  rw [Cert.Gcn.dot1_eq]
  refine (W4_arr m ρ c 2).trans ((Cert.Gcn.Reg0.final (V3 m ρ) c).trans ?_)
  show Cert.Gcn.mm 50000 512 256 (W3 m ρ c (Proc.devRef .tc main_arg0)) (W3 m ρ c (Proc.devRef .tc main_arg2)) = _
  rw [W3_arg0, W3_arg2]

/-- The first region writes none of the other buffers read later. -/
theorem W4_kept (c : Dev nD) : W4 m ρ c (Proc.devRef .tc main_v5) = W3 m ρ c (Proc.devRef .tc main_v5)
    ∧ W4 m ρ c (Proc.devRef .tc main_v6) = W3 m ρ c (Proc.devRef .tc main_v6)
    ∧ W4 m ρ c (Proc.devRef .tc main_v29) = W3 m ρ c (Proc.devRef .tc main_v29)
    ∧ W4 m ρ c (Proc.devRef .tc main_arg3) = W3 m ρ c (Proc.devRef .tc main_arg3)
    ∧ W4 m ρ c (Proc.devRef .tc main_arg4) = W3 m ρ c (Proc.devRef .tc main_arg4)
    ∧ W4 m ρ c (Proc.devRef .tc main_arg5) = W3 m ρ c (Proc.devRef .tc main_arg5) :=
  ⟨W4_of_ne m ρ c main_v5 (by decide), W4_of_ne m ρ c main_v6 (by decide), W4_of_ne m ρ c main_v29 (by decide),
   W4_of_ne m ρ c main_arg3 (by decide), W4_of_ne m ρ c main_arg4 (by decide), W4_of_ne m ρ c main_arg5 (by decide)⟩

/-- At the second region's entry: the first layer's aggregate. -/
theorem W5_agg (c : Dev nD) : W5 m ρ c (Proc.devRef .tc main_v43)
    = Cert.Gcn.agg256 (Cert.Gcn.dot1 (F := Ideal) (m ((c : Thread nD τ).loc main_arg0)) (m ((c : Thread nD τ).loc main_arg2)))
        (Cert.Gcn.srcExt (m ((c : Thread nD τ).loc main_arg1))) (Cert.Gcn.dstExt (m ((c : Thread nD τ).loc main_arg1)))
        (Cert.Gcn.normOf (m ((c : Thread nD τ).loc main_arg1))) := by
  obtain ⟨k5, k6, k29, -, -, -⟩ := W4_kept m ρ c
  refine (lineB_agg (W4 m ρ c)).trans ?_
  rw [W4_prod, k5, k6, k29, W3_src, W3_dst, W3_norm]

/-- At the second region's exit its output array holds the second layer's host product of the hidden activations. -/
theorem W6_prod (c : Dev nD) : W6 m ρ c (Proc.devRef .tc main_v45)
    = Cert.Gcn.dot2 (F := Ideal) (Cert.Gcn.hidden
        (Cert.Gcn.agg256 (Cert.Gcn.dot1 (F := Ideal) (m ((c : Thread nD τ).loc main_arg0)) (m ((c : Thread nD τ).loc main_arg2)))
          (Cert.Gcn.srcExt (m ((c : Thread nD τ).loc main_arg1))) (Cert.Gcn.dstExt (m ((c : Thread nD τ).loc main_arg1)))
          (Cert.Gcn.normOf (m ((c : Thread nD τ).loc main_arg1))))
        (m ((c : Thread nD τ).loc main_arg3))) (m ((c : Thread nD τ).loc main_arg4)) := by
  obtain ⟨-, -, -, k3, k4, -⟩ := W4_kept m ρ c
  rw [Cert.Gcn.dot2_hidden_eq _ _ _ shapeCasts_S256_S1x256]
  refine (W6_arr m ρ c 3).trans ((Cert.Gcn.Reg1.final (V5 m ρ) c).trans ?_)
  show Cert.Gcn.mmRelu 50000 256 128 (Ideal.ofBits .f32 0x00000000#32) (W5 m ρ c (Proc.devRef .tc main_v43))
    (W5 m ρ c (Proc.devRef .tc main_v44)) (W5 m ρ c (Proc.devRef .tc main_arg4)) = _
  rw [W5_agg, show W5 m ρ c (Proc.devRef .tc main_v44) = _ from lineB_bias (W4 m ρ c),
    show W5 m ρ c (Proc.devRef .tc main_arg4) = _ from (lineB_kept (W4 m ρ c)).2.2.2.1, k3, k4, W3_arg3, W3_arg4]

/-- The result buffer at the last boundary holds the network of the launch contents of the arguments. -/
theorem result_eq (c : Dev nD) : W7 m ρ c (Proc.devRef .tc main_v61)
    = Cert.Gcn.out (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  obtain ⟨k5, k6, k29, -, -, k5'⟩ := W4_kept m ρ c
  obtain ⟨b5, b6, b29, -, bA5⟩ := lineB_kept (W4 m ρ c)
  refine (lineC_out (W6 m ρ c)).trans ?_
  rw [W6_prod, W6_of_ne m ρ c main_v5 (by decide), W6_of_ne m ρ c main_v6 (by decide), W6_of_ne m ρ c main_v29 (by decide),
    W6_of_ne m ρ c main_arg5 (by decide)]
  show Cert.Gcn.aggOut _ (after hostOps1 (W4 m ρ c) (Proc.devRef .tc main_v5)) (after hostOps1 (W4 m ρ c) (Proc.devRef .tc main_v6))
    (after hostOps1 (W4 m ρ c) (Proc.devRef .tc main_v29)) (after hostOps1 (W4 m ρ c) (Proc.devRef .tc main_arg5)) = _
  rw [b5, b6, b29, bA5, k5, k6, k29, k5', W3_src, W3_dst, W3_norm, W3_arg5]
  rfl

end Cert.Gcn.KVal

end
-- ==== Proof.lean ====
/-
  A two-layer graph convolution on 50000 nodes and 850000 edges (800000 given edges and one self-loop per node): the
  kernel program against its reference, at exact values.

  Both programs compute, from the edge list, the degree-normalised edge weights; multiply the node features by the first
  weights; send every source's row along its edges, scaled by the edge weight, and add up at the targets; add the first
  bias and replace negative entries by zero; multiply by the second weights; aggregate along the edges again; add the
  second bias. The kernel program does the two matrix products in kernels over 25 row blocks of 2000 nodes, rounding the
  factors to bf16 first (the identity at exact values), fuses the bias and the maximum with zero into the second
  kernel, and computes the edge weights once; the reference does the products on the host and computes the weights per
  layer. A product over row blocks is the product of the whole arrays restricted to the block's rows, and the blocks tile
  the rows; the edge weights are one function of the edge list. So the two results are the same function of the six
  arguments, whatever their values: no finiteness of the inputs is used.

  The kernel's word-level program and its idealisation differ by no rewrite, so `preserves` is trivial; the three frames
  are the programs' runs with the result dropped.
-/
import proofs.«177668_j26336739459290_1_alg».proof.Defs
import proofs.«177668_j26336739459290_1_alg».proof.Proof.Gen.Kernel
import proofs.«177668_j26336739459290_1_alg».proof.Proof.Gen.Kernel.Frame
import proofs.«177668_j26336739459290_1_alg».proof.Proof.Gen.KernelIdeal
import proofs.«177668_j26336739459290_1_alg».proof.Proof.Gen.KernelIdeal.Frame
import proofs.«177668_j26336739459290_1_alg».proof.Proof.Gen.ReferenceIdeal
import proofs.«177668_j26336739459290_1_alg».proof.Proof.Gen.Pre_finite_inputs
import proofs.«177668_j26336739459290_1_alg».proof.Proof.RefRun
import proofs.«177668_j26336739459290_1_alg».proof.Proof.RefValue
import proofs.«177668_j26336739459290_1_alg».proof.Proof.KernelRun
import proofs.«177668_j26336739459290_1_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference runs, and no operation of it writes an argument buffer. -/
theorem frame_ri : Cert.frame_ReferenceIdeal := fun m ρ _ =>
  (θ_run Cert.ReferenceIdeal.defs _ _).mono (fun r h c => by
    obtain ⟨a0, a1, a2, a3, a4, a5⟩ := Cert.Gcn.Ref.args_kept (F := Ideal) (launchContents m c)
    exact ⟨(h c Cert.ReferenceIdeal.main_arg0).trans a0, (h c Cert.ReferenceIdeal.main_arg1).trans a1,
      (h c Cert.ReferenceIdeal.main_arg2).trans a2, (h c Cert.ReferenceIdeal.main_arg3).trans a3,
      (h c Cert.ReferenceIdeal.main_arg4).trans a4, (h c Cert.ReferenceIdeal.main_arg5).trans a5⟩)
    (Cert.ReferenceIdeal.RunP.run (F := Ideal) m ρ)

/-- The idealised kernel program is the kernel program's own text read at exact values: nothing to preserve. -/
theorem preserves : Cert.preserves_Kernel_KernelIdeal := trivial

/-- Both programs end with the network of the arguments in their result buffers. -/
theorem algebraic : Cert.algebraic_KernelIdeal_ReferenceIdeal := by
  intro m ρ m' ρ' _ hagree
  refine ⟨fun c => Cert.Gcn.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Gcn.KVal.result_eq m ρ c), (h c).2⟩) (Cert.Gcn.Ker.run (F := Ideal) m ρ)
  · refine (θ_run Cert.ReferenceIdeal.defs _ _).mono (fun r h c => ?_) (Cert.ReferenceIdeal.RunP.run (F := Ideal) m' ρ')
    obtain ⟨a0, a1, a2, a3, a4, a5⟩ := Cert.Gcn.Ref.args_kept (F := Ideal) (launchContents m' c)
    obtain ⟨e0, e1, e2, e3, e4, e5⟩ := hagree c
    refine ⟨(h c Cert.ReferenceIdeal.main_v94).trans ((Cert.Gcn.Ref.result_eq (F := Ideal) (launchContents m' c)).trans ?_),
      (h c Cert.ReferenceIdeal.main_arg0).trans a0, (h c Cert.ReferenceIdeal.main_arg1).trans a1,
      (h c Cert.ReferenceIdeal.main_arg2).trans a2, (h c Cert.ReferenceIdeal.main_arg3).trans a3,
      (h c Cert.ReferenceIdeal.main_arg4).trans a4, (h c Cert.ReferenceIdeal.main_arg5).trans a5⟩
    show Cert.Gcn.out (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = _
    rw [e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
